-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x200 : Shape := ⟨2, ![262144, 200]⟩
abbrev S100x100 : Shape := ⟨2, ![100, 100]⟩
abbrev S100 : Shape := ⟨1, ![100]⟩
abbrev S_ : Shape := ⟨0, ![]⟩

class Facts : Prop where
  bcast_S_S262144x200 : S_.BroadcastsInDim S262144x200 (![] : Fin 0 → Fin S262144x200.rank)
  reducesTo_S262144x200_S_d0_1 : S262144x200.ReducesTo [0, 1] S_
  h_S_ : 0 < S_.numel
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  main_v18

def fn {F : FTy → Type} [FloatOps F] (main_arg0 : FVec F S262144x200 .f32) (main_arg1 : FVec F S100x100 .f32) (main_arg2 : FVec F S100x100 .f32) (main_arg3 : FVec F S100 .f32) : IVec S_ 1 :=
  let main_v0 : FVec F S262144x200 .f32 := Host.absf main_arg0
  let main_cst : FVec F S_ .f32 := constant S_ .f32 0x7F800000#32
  let main_v1 : FVec F S262144x200 .f32 := broadcastInDim S262144x200 ![] bcast_S_S262144x200 main_cst
  let main_v2 : IVec S262144x200 1 := cmpf .olt main_v0 main_v1
  let main_c : IVec S_ 1 := constantI S_ 1 1#1
  let main_v3 : IVec S_ 1 := (fun x v => Host.reduce IntOp.andi x v reducesTo_S262144x200_S_d0_1 h_S_) main_v2 main_c
  let main_v4 : FVec F S100x100 .f32 := Host.absf main_arg1
  let main_cst_0 : FVec F S_ .f32 := constant S_ .f32 0x7F800000#32
  let main_v5 : FVec F S100x100 .f32 := broadcastInDim S100x100 ![] bcast_S_S100x100 main_cst_0
  let main_v6 : IVec S100x100 1 := cmpf .olt main_v4 main_v5
  let main_c_1 : IVec S_ 1 := constantI S_ 1 1#1
  let main_v7 : IVec S_ 1 := (fun x v => Host.reduce IntOp.andi x v reducesTo_S100x100_S_d0_1 h_S_) main_v6 main_c_1
  let main_v8 : IVec S_ 1 := andi main_v3 main_v7
  let main_v9 : FVec F S100x100 .f32 := Host.absf main_arg2
  let main_cst_2 : FVec F S_ .f32 := constant S_ .f32 0x7F800000#32
  let main_v10 : FVec F S100x100 .f32 := broadcastInDim S100x100 ![] bcast_S_S100x100 main_cst_2
  let main_v11 : IVec S100x100 1 := cmpf .olt main_v9 main_v10
  let main_c_3 : IVec S_ 1 := constantI S_ 1 1#1
  let main_v12 : IVec S_ 1 := (fun x v => Host.reduce IntOp.andi x v reducesTo_S100x100_S_d0_1 h_S_) main_v11 main_c_3
  let main_v13 : IVec S_ 1 := andi main_v8 main_v12
  let main_v14 : FVec F S100 .f32 := Host.absf main_arg3
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_v13 main_v16
-- ==== Kernel.lean ====
abbrev S262144x200 : Shape := ⟨2, ![262144, 200]⟩
abbrev S100x100 : Shape := ⟨2, ![100, 100]⟩
abbrev S100 : Shape := ⟨1, ![100]⟩
abbrev S1x100 : Shape := ⟨2, ![1, 100]⟩
abbrev S2048x200 : Shape := ⟨2, ![2048, 200]⟩
abbrev S2048x100 : Shape := ⟨2, ![2048, 100]⟩

abbrev nBuf : Space → Nat
  | .hbm => 10
  | .vmem => 7
  | .smem => 0
  | _ => 0

abbrev bufTy : (tb : Table) → Fin (tcTables nBuf tb) → BufTy
  | .hbm, ⟨0, _⟩ => ⟨S262144x200, .f32⟩
  | .hbm, ⟨1, _⟩ => ⟨S100x100, .f32⟩
  | .hbm, ⟨2, _⟩ => ⟨S100x100, .f32⟩
  | .hbm, ⟨3, _⟩ => ⟨S100, .f32⟩
  | .hbm, ⟨4, _⟩ => ⟨S100x100, .f32⟩
  | .hbm, ⟨5, _⟩ => ⟨S100x100, .bf16⟩
  | .hbm, ⟨6, _⟩ => ⟨S100x100, .f32⟩
  | .hbm, ⟨7, _⟩ => ⟨S100x100, .bf16⟩
  | .hbm, ⟨8, _⟩ => ⟨S1x100, .f32⟩
  | .hbm, ⟨9, _⟩ => ⟨S262144x200, .f32⟩
  | .local _ .vmem, ⟨0, _⟩ => ⟨S2048x200, .f32⟩
  | .local _ .vmem, ⟨1, _⟩ => ⟨S2048x200, .f32⟩
  | .local _ .vmem, ⟨2, _⟩ => ⟨S100x100, .bf16⟩
  | .local _ .vmem, ⟨3, _⟩ => ⟨S100x100, .bf16⟩
  | .local _ .vmem, ⟨4, _⟩ => ⟨S1x100, .f32⟩
  | .local _ .vmem, ⟨5, _⟩ => ⟨S2048x200, .f32⟩
  | .local _ .vmem, ⟨6, _⟩ => ⟨S2048x200, .f32⟩
  | _, _ => ⟨S262144x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x100 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100x100 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S100x100_S100x100_1_0 : S100x100.Transposes [1, 0] S100x100
  bitsLt_bf16_f32 : FTy.bits .bf16 < FTy.bits .f32
  shapeCasts_S100_S1x100 : S100.ShapeCasts S1x100
  inb_S2048x200_S2048x200_0_0 : ∀ a, (![0, 0] : Fin 2 → Nat) a + S2048x200.size a ≤ S2048x200.size a
  h_S2048x200 : 0 < S2048x200.numel
  slices_S2048x200_o0_0_S2048x100 : S2048x200.Slices ![0, 0] S2048x100
  slices_S2048x200_o0_100_S2048x100 : S2048x200.Slices ![0, 100] S2048x100
  inb_S100x100_S100x100_0_0 : ∀ a, (![0, 0] : Fin 2 → Nat) a + S100x100.size a ≤ S100x100.size a
  h_S100x100 : 0 < S100x100.numel
  shapeCasts_S100x100_S100x100 : S100x100.ShapeCasts S100x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2048x100 : S1x100.Broadcasts S2048x100
  concatenates_S2048x100_S2048x100_S2048x200_d1 : Shape.Concatenates [S2048x100, S2048x100] S2048x200 1
  dot_S2048x100_S100x100_S2048x100_1_0_0_1_n_n_wf : DotDims.WF S2048x100 S100x100 S2048x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x200.size a ≤ S262144x200.size a
  hwx0_0 : ∀ i : grid0.Coords, EltTy.bits .f32 = 32 ∨ (Rect.block (s := S262144x200) S2048x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x100.size a ≤ S100x100.size a
  hwx0_1 : ∀ i : grid0.Coords, EltTy.bits .bf16 = 32 ∨ (Rect.block (s := S100x100) S100x100.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x100.size a ≤ S100x100.size a
  hwx0_2 : ∀ i : grid0.Coords, EltTy.bits .bf16 = 32 ∨ (Rect.block (s := S100x100) S100x100.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x100.size a ≤ S1x100.size a
  hwx0_3 : ∀ i : grid0.Coords, EltTy.bits .f32 = 32 ∨ (Rect.block (s := S1x100) S1x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x200.size a ≤ S262144x200.size a
  hwx0_4 : ∀ i : grid0.Coords, EltTy.bits .f32 = 32 ∨ (Rect.block (s := S262144x200) S2048x200.size (cc0_transform_4 i) (hinb0_4 i)).WholeWords (EltTy.packing .f32)

variable [Facts₀]

def dot_S2048x100_S100x100_S2048x100_1_0_0_1_n_n : DotDims S2048x100 S100x100 S2048x100 where
  lhsContracting := [1]
  rhsContracting := [0]
  lhsNonContracting := [0]
  rhsNonContracting := [1]
  lhsBatch := []
  rhsBatch := []
  wf := dot_S2048x100_S100x100_S2048x100_1_0_0_1_n_n_wf

abbrev win0_0 : Pipeline.Window sig grid0 :=
  Pipeline.Window.ofSpec (Memref.whole main_arg0) S2048x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S100x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S100x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x200.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x200 : Shape := ⟨2, ![262144, 200]⟩
abbrev S100x100 : Shape := ⟨2, ![100, 100]⟩
abbrev S100 : Shape := ⟨1, ![100]⟩
abbrev S262144x100 : Shape := ⟨2, ![262144, 100]⟩
abbrev S_ : Shape := ⟨0, ![]⟩
abbrev S1x100 : Shape := ⟨2, ![1, 100]⟩

abbrev nBuf : Space → Nat
  | .hbm => 27
  | .vmem => 0
  | .smem => 0
  | _ => 0

abbrev bufTy : (tb : Table) → Fin (tcTables nBuf tb) → BufTy
  | .hbm, ⟨0, _⟩ => ⟨S262144x200, .f32⟩
  | .hbm, ⟨1, _⟩ => ⟨S100x100, .f32⟩
  | .hbm, ⟨2, _⟩ => ⟨S100x100, .f32⟩
  | .hbm, ⟨3, _⟩ => ⟨S100, .f32⟩
  | .hbm, ⟨4, _⟩ => ⟨S262144x100, .f32⟩
  | .hbm, ⟨5, _⟩ => ⟨S262144x100, .f32⟩
  | .hbm, ⟨6, _⟩ => ⟨S262144x100, .f32⟩
  | .hbm, ⟨7, _⟩ => ⟨S262144x100, .f32⟩
  | .hbm, ⟨8, _⟩ => ⟨S_, .f32⟩
  | .hbm, ⟨9, _⟩ => ⟨S262144x100, .f32⟩
  | .hbm, ⟨10, _⟩ => ⟨S262144x100, .f32⟩
  | .hbm, ⟨11, _⟩ => ⟨S262144x100, .f32⟩
  | .hbm, ⟨12, _⟩ => ⟨S_, .f32⟩
  | .hbm, ⟨13, _⟩ => ⟨S262144x100, .f32⟩
  | .hbm, ⟨14, _⟩ => ⟨S262144x100, .f32⟩
  | .hbm, ⟨15, _⟩ => ⟨S262144x100, .f32⟩
  | .hbm, ⟨16, _⟩ => ⟨S262144x100, .f32⟩
  | .hbm, ⟨17, _⟩ => ⟨S262144x100, .f32⟩
  | .hbm, ⟨18, _⟩ => ⟨S1x100, .f32⟩
  | .hbm, ⟨19, _⟩ => ⟨S262144x100, .f32⟩
  | .hbm, ⟨20, _⟩ => ⟨S262144x100, .f32⟩
  | .hbm, ⟨21, _⟩ => ⟨S262144x100, .f32⟩
  | .hbm, ⟨22, _⟩ => ⟨S262144x100, .f32⟩
  | .hbm, ⟨23, _⟩ => ⟨S262144x100, .f32⟩
  | .hbm, ⟨24, _⟩ => ⟨S262144x100, .f32⟩
  | .hbm, ⟨25, _⟩ => ⟨S262144x100, .f32⟩
  | .hbm, ⟨26, _⟩ => ⟨S262144x200, .f32⟩
  | _, _ => ⟨S262144x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  slices_S262144x200_S262144x100_0_0 : S262144x200.Slices ![0, 0] S262144x100
  slices_S262144x200_S262144x100_0_100 : S262144x200.Slices ![0, 100] S262144x100
  bcast_S_S262144x100 : S_.BroadcastsInDim S262144x100 (![] : Fin 0 → Fin S262144x100.rank)
  bcast_S100_S1x100_1 : S100.BroadcastsInDim S1x100 (![1] : Fin 1 → Fin S1x100.rank)
  bcast_S1x100_S262144x100_0_1 : S1x100.BroadcastsInDim S262144x100 (![0, 1] : Fin 2 → Fin S262144x100.rank)
  concatenates_S262144x100_S262144x100_S262144x200_d1 : Shape.Concatenates [S262144x100, S262144x100] S262144x200 1
  dot_S262144x100_S100x100_S262144x100_1_1_0_0_n_n_wf : DotDims.WF S262144x100 S100x100 S262144x100 [1] [1] [0] [0] [] []

variable [Facts₀]

def dot_S262144x100_S100x100_S262144x100_1_1_0_0_n_n : DotDims S262144x100 S100x100 S262144x100 where
  lhsContracting := [1]
  rhsContracting := [1]
  lhsNonContracting := [0]
  rhsNonContracting := [0]
  lhsBatch := []
  rhsBatch := []
  wf := dot_S262144x100_S100x100_S262144x100_1_1_0_0_n_n_wf

class Facts : Prop extends Facts₀ where

variable [Facts]
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.RateLaw.lean ====
/-
  The closed-loop rate law that both programs compute, as one function of the argument arrays.

  A state row holds a position x (columns 0…99) and an error e (columns 100…199). With the saturation
  σ(y) = y² / (1 + y²), a drift matrix A, a gain matrix K and a target t (all of width 100), the rate of coordinate j is

      r j = ((−1)·x j + Σ k, σ(x k) · A j k) + (−(Σ k, ((x k + e k) − t k) · K j k)) · σ(x j)

  and the result row is r followed by −r. Everything is read on the extended reals, where the two float words 1.0 and
  −1.0 are kept as words (both programs carry the same words, so their values are never needed). The two sums run
  over the same index in the same order on both sides, so no law beyond reading the operations is needed and no
  finiteness of the inputs is used.
-/
import Idealize.ShloMosaic.PureOps.Ideal
import Idealize.ShloMosaic.Lib.ValueIdx

noncomputable section

namespace Cert.RateLaw

open Idealize.ShloMosaic Idealize.ShloMosaic.ValueIdx
open scoped BigOperators

/-- The float word of 1.0, read on the extended reals. -/
abbrev oneW : EReal := Ideal.ofBits .f32 0x3F800000#32
/-- The float word of −1.0, read on the extended reals. -/
abbrev negOneW : EReal := Ideal.ofBits .f32 0xBF800000#32

/-- The saturation y² / (1 + y²). -/
def sat (y : EReal) : EReal := Ideal.div (y * y) (oneW + y * y)

/-- Column j of the position half of a 200-wide row. -/
abbrev posCol (j : Fin 100) : Fin 200 := ⟨j.val, by have := j.isLt; omega⟩
/-- Column j of the error half of a 200-wide row. -/
abbrev errCol (j : Fin 100) : Fin 200 := ⟨100 + j.val, by have := j.isLt; omega⟩

/-- The rate of coordinate j from a position row x, an error row e, the drift rows a j, the gain rows g j and the target. -/
def rate (x e : Fin 100 → EReal) (a g : Fin 100 → Fin 100 → EReal) (t : Fin 100 → EReal) (j : Fin 100) : EReal :=
  ((negOneW * x j + ∑ k : Fin 100, sat (x k) * a j k)
    + (-(∑ k : Fin 100, ((x k + e k) - t k) * g j k)) * sat (x j))

/-- A result row: the rates, then their negatives. -/
def row (x e : Fin 100 → EReal) (a g : Fin 100 → Fin 100 → EReal) (t : Fin 100 → EReal) (c : Fin 200) : EReal :=
  if h : c.val < 100 then rate x e a g t ⟨c.val, h⟩
  else -(rate x e a g t ⟨c.val - 100, by have := c.isLt; omega⟩)

/-- The whole result over n state rows: row b is the result row of state row b. The matrices are read as A j k, K j k
    (row j holds the coefficients of coordinate j). -/
def field {n : Nat} (s : (⟨2, ![n, 200]⟩ : Shape).Idx → EReal) (A K : (⟨2, ![100, 100]⟩ : Shape).Idx → EReal)
    (t : (⟨1, ![100]⟩ : Shape).Idx → EReal) : (⟨2, ![n, 200]⟩ : Shape).Idx → EReal := fun i =>
  row (fun k => s (ix2 (i 0) (posCol k))) (fun k => s (ix2 (i 0) (errCol k)))
    (fun j k => A (ix2 j k)) (fun j k => K (ix2 j k)) (fun k => t (ix1 k)) (i 1)

/-- The result at (b, c), by coordinates. -/
theorem field_apply {n : Nat} (s : (⟨2, ![n, 200]⟩ : Shape).Idx → EReal) (A K : (⟨2, ![100, 100]⟩ : Shape).Idx → EReal)
    (t : (⟨1, ![100]⟩ : Shape).Idx → EReal) (b : Fin n) (c : Fin 200) :
    field s A K t (ix2 b c)
      = row (fun k => s (ix2 b (posCol k))) (fun k => s (ix2 b (errCol k)))
          (fun j k => A (ix2 j k)) (fun j k => K (ix2 j k)) (fun k => t (ix1 k)) c := rfl

end Cert.RateLaw

end
-- ==== Proof.RefRate.lean ====
/-
  The reference program, stage by stage, is the rate law.

  Each stage of the host program is read at an index (b, j) of the 262144 × 100 arrays it works on: the position and
  error halves of the state, the saturation, the two contractions against the rows of A and K (the host contracts
  axis 1 of both operands, so coordinate j meets row j of the matrix), and the last stage lays the rates and their
  negatives side by side.
-/
import proofs.«124218_j31868657336361_1_alg».proof.Proof.Gen.ReferenceIdeal.Read
import proofs.«124218_j31868657336361_1_alg».proof.Proof.LibDense
import proofs.«124218_j31868657336361_1_alg».proof.Proof.RateLaw

noncomputable section

namespace Cert.RefRate

open Cert.ReferenceIdeal Cert.ReferenceIdeal.Read Idealize.ShloMosaic Idealize.ShloMosaic.ValueIdx Cert.RateLaw
open scoped BigOperators

abbrev St := (⟨S262144x200, .f32⟩ : BufTy).Contents (Elt Ideal)
abbrev Mat := (⟨S100x100, .f32⟩ : BufTy).Contents (Elt Ideal)
abbrev Tgt := (⟨S100, .f32⟩ : BufTy).Contents (Elt Ideal)

/-- The position half at (b, j) is the state at column j. -/
theorem pos_apply (s : St) (b : Fin 262144) (j : Fin 100) :
    val_main_v0 (F := Ideal) s (ix2 b j) = s (ix2 b (posCol j)) := by
  rw [val_main_v0_apply]
  exact congrArg s (funext fun a => Fin.ext (by match a with | ⟨0, _⟩ => rfl | ⟨1, _⟩ => rfl))

/-- The error half at (b, j) is the state at column 100 + j. -/
theorem err_apply (s : St) (b : Fin 262144) (j : Fin 100) :
    val_main_v1 (F := Ideal) s (ix2 b j) = s (ix2 b (errCol j)) := by
  rw [val_main_v1_apply]
  exact congrArg s (funext fun a => Fin.ext (by match a with | ⟨0, _⟩ => rfl | ⟨1, _⟩ => rfl))

/-- The saturation stage at (b, j). -/
theorem sat_apply (s : St) (b : Fin 262144) (j : Fin 100) :
    val_main_v6 (F := Ideal) s (ix2 b j) = sat (s (ix2 b (posCol j))) := by
  rw [val_main_v6_apply, val_main_v2_apply, val_main_v5_apply, val_main_v3_apply, val_main_v4_apply,
    val_main_cst_apply, pos_apply]
  rfl

/-- The first contraction at (b, j): the saturated positions against row j of A. -/
theorem drift_apply (s : St) (A : Mat) (b : Fin 262144) (j : Fin 100) :
    val_main_v9 (F := Ideal) s A (ix2 b j) = ∑ k : Fin 100, sat (s (ix2 b (posCol k))) * A (ix2 j k) := by
  rw [val_main_v9_apply]
  refine Finset.sum_congr rfl fun k _ => ?_
  have el : lidx_main_v9 (ix2 b j) k = ix2 b k :=
    funext fun a => Fin.ext (by match a with | ⟨0, _⟩ => rfl | ⟨1, _⟩ => rfl)
  have er : ridx_main_v9 (ix2 b j) k = ix2 j k :=
    funext fun a => Fin.ext (by match a with | ⟨0, _⟩ => rfl | ⟨1, _⟩ => rfl)
  rw [el, er, sat_apply]

/-- The target spread over the rows, at (b, k). -/
theorem target_apply (t : Tgt) (b : Fin 262144) (k : Fin 100) :
    val_main_v13 (F := Ideal) t (ix2 b k) = t (ix1 k) := by
  rw [val_main_v13_apply, val_main_v12_apply]
  exact congrArg t (funext fun a => by match a with | ⟨0, _⟩ => rfl)

/-- The tracking error stage at (b, k). -/
theorem track_apply (s : St) (t : Tgt) (b : Fin 262144) (k : Fin 100) :
    val_main_v14 (F := Ideal) s t (ix2 b k) = (s (ix2 b (posCol k)) + s (ix2 b (errCol k))) - t (ix1 k) := by
  rw [val_main_v14_apply, val_main_v11_apply, pos_apply, err_apply, target_apply]
  rfl

/-- The second contraction at (b, j): the tracking errors against row j of K. -/
theorem gain_apply (s : St) (K : Mat) (t : Tgt) (b : Fin 262144) (j : Fin 100) :
    val_main_v15 (F := Ideal) s K t (ix2 b j)
      = ∑ k : Fin 100, ((s (ix2 b (posCol k)) + s (ix2 b (errCol k))) - t (ix1 k)) * K (ix2 j k) := by
  rw [val_main_v15_apply]
  refine Finset.sum_congr rfl fun k _ => ?_
  have el : lidx_main_v15 (ix2 b j) k = ix2 b k :=
    funext fun a => Fin.ext (by match a with | ⟨0, _⟩ => rfl | ⟨1, _⟩ => rfl)
  have er : ridx_main_v15 (ix2 b j) k = ix2 j k :=
    funext fun a => Fin.ext (by match a with | ⟨0, _⟩ => rfl | ⟨1, _⟩ => rfl)
  rw [el, er, track_apply]

/-- The rate stage at (b, j) is the rate law of state row b. -/
theorem rate_apply (s : St) (A K : Mat) (t : Tgt) (b : Fin 262144) (j : Fin 100) :
    val_main_v18 (F := Ideal) s A K t (ix2 b j)
      = rate (fun k => s (ix2 b (posCol k))) (fun k => s (ix2 b (errCol k)))
          (fun j k => A (ix2 j k)) (fun j k => K (ix2 j k)) (fun k => t (ix1 k)) j := by
  rw [val_main_v18_apply, val_main_v10_apply, val_main_v8_apply, val_main_v7_apply, val_main_cst_0_apply,
    val_main_v17_apply, val_main_v16_apply, pos_apply, drift_apply, gain_apply, sat_apply]
  rfl

/-- The whole result of the reference is the rate law's field: the rates in columns 0…99, their negatives after. -/
theorem result_eq (s : St) (A K : Mat) (t : Tgt) :
    val_main_v20 (F := Ideal) s A K t = field s A K t := by
  funext i
  obtain ⟨b, c, rfl⟩ : ∃ (b : Fin 262144) (c : Fin 200), i = ix2 b c := ⟨i 0, i 1, eq_ix2 i⟩
  rw [field_apply]
  unfold val_main_v20 row
  rw [Cert.LibDense.concat_cols_apply (by norm_num : 100 + 100 = 200)]
  by_cases h : c.val < 100
  · rw [dif_pos h, dif_pos h, rate_apply]
  · rw [dif_neg h, dif_neg h, val_main_v19_apply, rate_apply]
    rfl

end Cert.RefRate

end
-- ==== Proof.LibTiles.lean ====
/-
  Tiles of matrices read at an index, over variable extents. A block of columns cut out of a matrix reads the matrix
  at the shifted column. A plain matrix product into a zero accumulator, at the extended reals, is at (p, c) the sum
  over the shared axis of the left factor's row p times the right factor's column c. A four-term sum written as a left
  nest, alone or on top of a first term, is the sum over `Fin 4`. The float words of 0 and 1 are 0 and 1.
-/
import Idealize.ShloMosaic.PureOps.Ideal.Laws
import Idealize.ShloMosaic.Lib.ValueIdx
import Idealize.ShloMosaic.Lib.Pipeline.Value

noncomputable section

namespace Cert.LibTiles

open Idealize.ShloMosaic Idealize.ShloMosaic.ValueIdx
open scoped BigOperators

variable {α : Type}

/-- Columns `o … o + C' − 1` of an `[R, C]` matrix, read at `(p, j)`: the matrix at `(p, o + j)`. -/
theorem sliceCols_apply {R C C' : ℕ} (o : ℕ) (v : (⟨2, ![R, C]⟩ : Shape).Idx → α)
    (h : (⟨2, ![R, C]⟩ : Shape).Slices ![0, o] ⟨2, ![R, C']⟩) (p : Fin R) (j : Fin C') (hj : o + j.val < C) :
    extractStridedSlice ⟨2, ![R, C']⟩ ![0, o] v h (ix2 p j) = v (ix2 p ⟨o + j.val, hj⟩) :=
  extractStridedSlice_apply ![0, o] v h (ix2 p j) (ix2 p ⟨o + j.val, hj⟩) (fun a => match a with
    | ⟨0, _⟩ => by show p.val = 0 + p.val; omega
    | ⟨1, _⟩ => rfl)

/-- A plain `[M, K] · [K, N]` product into the zero accumulator, read at `(p, c)` at the extended reals: the sum over
    the shared axis. The four hypotheses say which coordinates the product's dimension numbers pair up. -/
theorem matmul_plain_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂) (p : Fin M) (c : Fin N) :
    matmul d prec lhs rhs (constant (F := Ideal) ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- Four terms added left to right are their sum over `Fin 4`. -/
theorem sum4_nest {M : Type*} [AddCommMonoid M] (f : Fin 4 → M) : ((f 0 + f 1) + f 2) + f 3 = ∑ k : Fin 4, f k :=
  (Fin.sum_univ_four f).symm

/-- Four terms added one after another on top of a first one are the first plus their sum over `Fin 4`. -/
theorem acc4_nest {M : Type*} [AddCommMonoid M] (a : M) (f : Fin 4 → M) :
    (((a + f 0) + f 1) + f 2) + f 3 = a + ∑ k : Fin 4, f k := by
  rw [Fin.sum_univ_four, add_assoc, add_assoc, add_assoc, add_assoc, add_assoc]

/-- The f32 word `0x3F800000` is the number one. -/
theorem one_f32 : Ideal.ofBits .f32 0x3F800000#32 = 1 := by
  simp [Ideal.ofBits, Ideal.ieee, -EReal.coe_mul]; norm_num

end Cert.LibTiles

end
-- ==== Proof.TileRate.lean ====
/-
  The tile the kernel body stores, read at an index, is the rate law of the tile's state rows.

  The body works on 2048 state rows at a time. It cuts the tile into its position and error halves, forms the
  saturation, multiplies the saturated positions and the tracking errors into the staged matrices (which hold the
  TRANSPOSES of A and K, so that entry (k, j) of a staged matrix is the coefficient of coordinate j against index k),
  and lays the rates and their negatives side by side. A product into the zero accumulator is the plain sum over the
  shared axis; the negation is written as a subtraction from zero.
-/
import proofs.«124218_j31868657336361_1_alg».proof.Proof.Gen.KernelIdeal.Skeleton
import proofs.«124218_j31868657336361_1_alg».proof.Proof.LibDense
import proofs.«124218_j31868657336361_1_alg».proof.Proof.LibTiles
import proofs.«124218_j31868657336361_1_alg».proof.Proof.RateLaw
import Idealize.ShloMosaic.Lib.ValueLayout
import Idealize.ShloMosaic.Lib.Pipeline.Value
import Idealize.ShloMosaic.PureOps.Ideal.Laws

noncomputable section

namespace Cert.TileRate

open Cert.KernelIdeal Cert.KernelIdeal.Gen Idealize.ShloMosaic Idealize.ShloMosaic.ValueIdx Cert.RateLaw
open scoped BigOperators

/-- The position half of a tile at (p, j) is the tile at column j. -/
theorem pos_apply (v0 : FVec Ideal S2048x200 .f32) (h : S2048x200.Slices ![0, 0] S2048x100) (p : Fin 2048) (j : Fin 100) :
    extractStridedSlice S2048x100 ![0, 0] v0 h (ix2 p j) = v0 (ix2 p (posCol j)) := by
  rw [Cert.LibTiles.sliceCols_apply 0 v0 h p j (by have := j.isLt; omega)]
  exact congrArg v0 (congrArg (ix2 p) (Fin.ext (Nat.zero_add _)))

/-- The error half of a tile at (p, j) is the tile at column 100 + j. -/
theorem err_apply (v0 : FVec Ideal S2048x200 .f32) (h : S2048x200.Slices ![0, 100] S2048x100) (p : Fin 2048) (j : Fin 100) :
    extractStridedSlice S2048x100 ![0, 100] v0 h (ix2 p j) = v0 (ix2 p (errCol j)) :=
  Cert.LibTiles.sliceCols_apply 100 v0 h p j (by have := j.isLt; omega)

/-- A tile's product with a staged matrix into the zero accumulator, at (p, j): the sum over the shared axis. -/
theorem prod_apply (l : FVec Ideal S2048x100 .bf16) (r : FVec Ideal S100x100 .bf16) (p : Fin 2048) (j : Fin 100) :
    matmul dot_S2048x100_S100x100_S2048x100_1_0_0_1_n_n none l r (constant S2048x100 .f32 0x00000000#32) (ix2 p j)
      = ∑ k : Fin 100, l (ix2 p k) * r (ix2 k j) :=
  Cert.LibDense.matmul_zero_plain dot_S2048x100_S100x100_S2048x100_1_0_0_1_n_n_wf none l r p j

/-- The staged target row spread over the tile's rows, at (p, k). -/
theorem target_apply (v7 : FVec Ideal S1x100 .f32) (hb : S1x100.Broadcasts S2048x100) (p : Fin 2048) (k : Fin 100) :
    broadcastTo S2048x100 v7 hb (ix2 p k) = v7 (ix2 (0 : Fin 1) k) :=
  broadcastTo_1b_ab_apply v7 hb p k

/-- THE STORED TILE at (p, c): the result row of the tile's state row p, the staged matrices read transposed. -/
theorem tile_apply (v0 : Vec Ideal S2048x200 .f32) (v3 v5 : Vec Ideal S100x100 .bf16) (v7 : Vec Ideal S1x100 .f32)
    (p : Fin 2048) (c : Fin 200) :
    k0_pay1 (F := Ideal) v0 v3 v5 v7 (ix2 p c)
      = row (fun k => v0 (ix2 p (posCol k))) (fun k => v0 (ix2 p (errCol k)))
          (fun j k => v3 (ix2 k j)) (fun j k => v5 (ix2 k j)) (fun k => v7 (ix2 (0 : Fin 1) k)) c := by
  unfold k0_pay1
  rw [Cert.LibDense.concat_cols_apply (by norm_num : 100 + 100 = 200)]
  unfold row rate
  by_cases h : c.val < 100
  · rw [dif_pos h, dif_pos h]
    simp only [addf_apply, mulf_apply, subf_apply, divf_apply, truncf_apply, broadcast_apply, pos_apply, err_apply,
      prod_apply, target_apply, shapeCast_self, Ideal.ofBits_def, Ideal.ofBits_zero_f32, zero_sub]
    rfl
  · rw [dif_neg h, dif_neg h]
    simp only [addf_apply, mulf_apply, subf_apply, divf_apply, truncf_apply, broadcast_apply, pos_apply, err_apply,
      prod_apply, target_apply, shapeCast_self, Ideal.ofBits_def, Ideal.ofBits_zero_f32, zero_sub]
    rfl

end Cert.TileRate

end
-- ==== Proof.TileField.lean ====
/-
  From tiles to the whole array: after the run the kernel's result array is the rate law's field.

  Grid point t works on state rows 2048·t … 2048·t + 2047 and writes back the same rows of the result; the three
  parameter windows are whole arrays at every point. The drift and gain windows are staged from arrays the host
  wrote before the launch, the transposes of A and K, and the target window from the target laid out as one row. So
  the tile stored at point t is block t of the field, the 128 blocks cover the array, and the array ends at the field.
-/
import proofs.«124218_j31868657336361_1_alg».proof.Proof.Gen.KernelIdeal.Value
import proofs.«124218_j31868657336361_1_alg».proof.Proof.TileRate
import Idealize.ShloMosaic.Lib.Pipeline.Value
import Idealize.ShloMosaic.Lib.StableHlo.Run
import Idealize.ShloMosaic.Lib.Tactic

noncomputable section

namespace Cert.TileField

open Cert.KernelIdeal Cert.KernelIdeal.Gen Idealize.ShloMosaic Idealize.ShloMosaic.TcCoe Idealize.SL.Sem
open Idealize.ShloMosaic.ValueIdx Cert.RateLaw
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## A stored tile whose inputs are rows of the arguments is the same rows of the field -/

/-- If a state tile holds rows r0 … r0 + 2047 of the state, the staged matrices are the transposes of A and K and the
    staged row is the target, then the stored tile at y is the field at the index y shifted down by r0 rows. -/
theorem tile_is_rows (v0 : Vec Ideal S2048x200 .f32) (v3 v5 : Vec Ideal S100x100 .bf16) (v7 : Vec Ideal S1x100 .f32)
    (s : S262144x200.Idx → EReal) (A K : S100x100.Idx → EReal) (tg : S100.Idx → EReal) (r0 : Nat)
    (h0 : ∀ (p : Fin 2048) (q : Fin 200) (b : Fin 262144), b.val = r0 + p.val → v0 (ix2 p q) = s (ix2 b q))
    (h3 : ∀ k j : Fin 100, v3 (ix2 k j) = A (ix2 j k))
    (h5 : ∀ k j : Fin 100, v5 (ix2 k j) = K (ix2 j k))
    (h7 : ∀ k : Fin 100, v7 (ix2 (0 : Fin 1) k) = tg (ix1 k))
    (y : S2048x200.Idx) (i : S262144x200.Idx) (hi0 : (i 0).val = r0 + (y 0).val) (hi1 : (i 1).val = (y 1).val) :
    k0_pay1 (F := Ideal) v0 v3 v5 v7 y = field s A K tg i := by
  obtain ⟨p, q, rfl⟩ : ∃ (p : Fin 2048) (q : Fin 200), y = ix2 p q := ⟨y 0, y 1, eq_ix2 y⟩
  obtain ⟨b, c, rfl⟩ : ∃ (b : Fin 262144) (c : Fin 200), i = ix2 b c := ⟨i 0, i 1, eq_ix2 i⟩
  obtain rfl : c = q := Fin.ext hi1
  rw [Cert.TileRate.tile_apply, field_apply]
  have e0 : ∀ q' : Fin 200, v0 (ix2 p q') = s (ix2 b q') := fun q' => h0 p q' b hi0
  simp only [e0, h3, h5, h7]

/-! ## The printed index maps, decided over the 128 grid points -/

/-- The state and result windows move down one block of rows per point; the parameter windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## What the region finds in the parameter windows' arrays -/

/-- A transposed 100 × 100 matrix (its float format changed, which is the identity) at (k, j) is the matrix at (j, k). -/
theorem transposed_at (x : FVec Ideal S100x100 .f32) (h : S100x100.Transposes [1, 0] S100x100)
    (hb : FTy.bits .bf16 < FTy.bits .f32) (k j : Fin 100) :
    (truncf .bf16 (transpose S100x100 [1, 0] x h) hb : FVec Ideal S100x100 .bf16) (ix2 k j) = x (ix2 j k) :=
  transpose_apply [1, 0] x h (ix2 k j) (ix2 j k) (fun b => by match b with | ⟨0, _⟩ => rfl | ⟨1, _⟩ => rfl)

/-- The drift window's array is the transpose of A. -/
theorem V_drift (c : Dev nD) :
    (V m c main_v1 : S100x100.Idx → EReal)
      = (truncf .bf16 (transpose S100x100 [1, 0] (m ((c : Thread nD τ).loc main_arg1)) transposes_S100x100_S100x100_1_0)
          bitsLt_bf16_f32 : FVec Ideal S100x100 .bf16) := by
  dsimp only [V, hostOps0]; after_results

/-- The gain window's array is the transpose of K. -/
theorem V_gain (c : Dev nD) :
    (V m c main_v3 : S100x100.Idx → EReal)
      = (truncf .bf16 (transpose S100x100 [1, 0] (m ((c : Thread nD τ).loc main_arg2)) transposes_S100x100_S100x100_1_0)
          bitsLt_bf16_f32 : FVec Ideal S100x100 .bf16) := by
  dsimp only [V, hostOps0]; after_results

/-- The target window's array is the target laid out as one row. -/
theorem V_target (c : Dev nD) :
    (V m c main_v4 : S1x100.Idx → EReal)
      = shapeCast S1x100 (m ((c : Thread nD τ).loc main_arg3)) shapeCasts_S100_S1x100 := by
  dsimp only [V, hostOps0]; after_results; rfl

/-- The one-row layout of a vector of 100 entries at (0, k) is the vector at k. -/
theorem row_at (x : S100.Idx → EReal) (h : S100.ShapeCasts S1x100) (k : Fin 100) :
    shapeCast S1x100 x h (ix2 (0 : Fin 1) k) = x (ix1 k) :=
  shapeCast_apply x h (ix2 (0 : Fin 1) k) (ix1 k) (by
    rw [Shape.rowMajor_val_one, Shape.rowMajor_val_two]
    show k.val = 0 * 100 + k.val
    omega)

/-! ## The windows' blocks at a point, as entries of the arguments -/

/-- The state window's block at point t holds state rows 2048·t … 2048·t + 2047. -/
theorem state_block (c : Dev nD) (t : Fin cfg0.N) (p : Fin 2048) (q : Fin 200) (b : Fin 262144)
    (hb : b.val = 2048 * t.val + p.val) :
    (iblk m c 0 t : Vec Ideal S2048x200 .f32) (ix2 p q)
      = (m ((c : Thread nD τ).loc main_arg0) : S262144x200.Idx → EReal) (ix2 b q) := by
  obtain ⟨e00, e01, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 2048 + 1 * p.val = b.val; rw [e00, hb]; omega
  | ⟨1, _⟩ => show win0_0.index t (1 : Fin 2) * 200 + 1 * q.val = q.val; rw [e01]; omega

/-- The drift window's block at any point is the whole transpose of A. -/
theorem drift_block (c : Dev nD) (t : Fin cfg0.N) (k j : Fin 100) :
    (iblk m c 1 t : Vec Ideal S100x100 .bf16) (ix2 k j)
      = (m ((c : Thread nD τ).loc main_arg1) : S100x100.Idx → EReal) (ix2 j k) := by
  obtain ⟨-, -, e10, e11, -⟩ := idx_facts t
  unfold iblk
  rw [View.read_apply]
  show V m c main_v1 _ = _
  refine (congrArg (V m c main_v1) (funext fun a => Fin.ext ?_ : _ = ix2 k j)).trans
    ((congrFun (V_drift m c) (ix2 k j)).trans (transposed_at _ _ _ k j))
  match a with
  | ⟨0, _⟩ => show win0_1.index t (0 : Fin 2) * 100 + 1 * k.val = k.val; rw [e10]; omega
  | ⟨1, _⟩ => show win0_1.index t (1 : Fin 2) * 100 + 1 * j.val = j.val; rw [e11]; omega

/-- The gain window's block at any point is the whole transpose of K. -/
theorem gain_block (c : Dev nD) (t : Fin cfg0.N) (k j : Fin 100) :
    (iblk m c 2 t : Vec Ideal S100x100 .bf16) (ix2 k j)
      = (m ((c : Thread nD τ).loc main_arg2) : S100x100.Idx → EReal) (ix2 j k) := by
  obtain ⟨-, -, -, -, e20, e21, -⟩ := idx_facts t
  unfold iblk
  rw [View.read_apply]
  show V m c main_v3 _ = _
  refine (congrArg (V m c main_v3) (funext fun a => Fin.ext ?_ : _ = ix2 k j)).trans
    ((congrFun (V_gain m c) (ix2 k j)).trans (transposed_at _ _ _ k j))
  match a with
  | ⟨0, _⟩ => show win0_2.index t (0 : Fin 2) * 100 + 1 * k.val = k.val; rw [e20]; omega
  | ⟨1, _⟩ => show win0_2.index t (1 : Fin 2) * 100 + 1 * j.val = j.val; rw [e21]; omega

/-- The target window's block at any point is the target as one row. -/
theorem target_block (c : Dev nD) (t : Fin cfg0.N) (k : Fin 100) :
    (iblk m c 3 t : Vec Ideal S1x100 .f32) (ix2 (0 : Fin 1) k)
      = (m ((c : Thread nD τ).loc main_arg3) : S100.Idx → EReal) (ix1 k) := by
  obtain ⟨-, -, -, -, -, -, e30, e31, -⟩ := idx_facts t
  unfold iblk
  rw [View.read_apply]
  show V m c main_v4 _ = _
  refine (congrArg (V m c main_v4) (funext fun a => Fin.ext ?_ : _ = ix2 (0 : Fin 1) k)).trans
    ((congrFun (V_target m c) (ix2 (0 : Fin 1) k)).trans (row_at _ _ k))
  match a with
  | ⟨0, _⟩ => show win0_3.index t (0 : Fin 2) * 1 + 1 * 0 = 0; rw [e30]
  | ⟨1, _⟩ => show win0_3.index t (1 : Fin 2) * 100 + 1 * k.val = k.val; rw [e31]; omega

/-! ## What a point writes back, the cover, and the run -/

/-- The field of the arguments as launched. -/
abbrev result (c : Dev nD) : S262144x200.Idx → EReal :=
  field (m ((c : Thread nD τ).loc main_arg0)) (m ((c : Thread nD τ).loc main_arg1))
    (m ((c : Thread nD τ).loc main_arg2)) (m ((c : Thread nD τ).loc main_arg3))

/-- WHAT POINT t WRITES BACK is block t of the field. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero hz]
  simp only [View.ld_unit_zero (S := S2048x200) hz, View.ld_unit_zero (S := S100x100) hz,
    View.ld_unit_zero (S := S1x100) hz]
  obtain ⟨-, -, -, -, -, -, -, -, e40, e41⟩ := idx_facts t
  funext y
  show k0_pay1 (F := Ideal) (iblk m c 0 t) (iblk m c 1 t) (iblk m c 2 t) (iblk m c 3 t) y
    = result m c (((cfg0.win 4).blk t).view.emb y)
  refine tile_is_rows (iblk m c 0 t) (iblk m c 1 t) (iblk m c 2 t) (iblk m c 3 t) _ _ _ _ (2048 * t.val)
    (fun p q b hb => state_block m c t p q b hb) (drift_block m c t) (gain_block m c t) (target_block m c t) y _ ?_ ?_
  · show win0_4.index t (0 : Fin 2) * 2048 + 1 * (y 0).val = 2048 * t.val + (y 0).val
    rw [e40]; omega
  · show win0_4.index t (1 : Fin 2) * 200 + 1 * (y 1).val = (y 1).val
    rw [e41]; omega

/-- An index of the result array is in point t's block iff each coordinate is in the block's range on its axis. -/
theorem mem_blk (t : Fin cfg0.N) (i : S262144x200.Idx) :
    i ∈ ((cfg0.win 4).blk t).view.set ↔ ∀ a : Fin 2, win0_4.index t a * S2048x200.size a ≤ (i a).val
      ∧ (i a).val < win0_4.index t a * S2048x200.size a + S2048x200.size a := by
  show i ∈ ((View.whole main_v5).slice (win0_4.rect t)).set ↔ _
  rw [View.set_slice_whole, Rect.mem_set_unit]
  exact Iff.rfl

/-- THE RESULT ARRAY after the run is the field: row r lies in the block of point r / 2048. -/
theorem final (c : Dev nD) : (dats m 0 c).arrAt 4 cfg0.N = result m c :=
  (dats m 0 c).arrAt_eq_of_cover 4 (result m c) (fun t _ => flushed_eq m c t) fun i => by
    have hi0 : (i 0).val < 262144 := idx2_lt0 i
    have hi1 : (i 1).val < 200 := idx2_lt1 i
    have hN : cfg0.N = 128 := N_0
    have ht : (i 0).val / 2048 < cfg0.N := by rw [hN]; omega
    obtain ⟨-, -, -, -, -, -, -, -, e40, e41⟩ := idx_facts ⟨(i 0).val / 2048, ht⟩
    refine ⟨⟨(i 0).val / 2048, ht⟩, flush0_4 _, ?_⟩
    rw [mem_blk]
    intro a
    match a with
    | ⟨0, _⟩ =>
      show win0_4.index ⟨(i 0).val / 2048, ht⟩ (0 : Fin 2) * 2048 ≤ (i 0).val
        ∧ (i 0).val < win0_4.index ⟨(i 0).val / 2048, ht⟩ (0 : Fin 2) * 2048 + 2048
      rw [e40]
      show (i 0).val / 2048 * 2048 ≤ (i 0).val ∧ (i 0).val < (i 0).val / 2048 * 2048 + 2048
      omega
    | ⟨1, _⟩ =>
      show win0_4.index ⟨(i 0).val / 2048, ht⟩ (1 : Fin 2) * 200 ≤ (i 1).val
        ∧ (i 1).val < win0_4.index ⟨(i 0).val / 2048, ht⟩ (1 : Fin 2) * 200 + 200
      rw [e41]
      omega

/-- The kernel's run: the result array ends at the field of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.TileField

end
-- ==== Proof.lean ====
/-
  The certificate of a batched closed-loop rate law: a kernel that streams 262144 state rows through in tiles of
  2048 rows, against the whole-array formula.

  A state row is a position x and an error e, each of width 100. With the saturation σ(y) = y² / (1 + y²), a drift
  matrix A, a gain matrix K and a target t, both programs compute, for every row and coordinate j,

      r j = ((−1)·x j + Σ k, σ(x k) · A j k) + (−(Σ k, ((x k + e k) − t k) · K j k)) · σ(x j)

  and return the rows (r, −r). The kernel multiplies tiles into the transposes of A and K, which the host forms before
  the launch, and narrows the factors' float format on the way in; on the extended reals a change of float format is the
  identity and a product into the zero accumulator is the plain sum over the shared axis, so each stored tile is the
  matching rows of the formula (Proof/TileRate.lean), the 128 tiles cover the result (Proof/TileField.lean), and the
  reference's stages compose to the same formula (Proof/RefRate.lean). The two sides add the same terms in the same
  order, so no algebraic law beyond reading the operations is needed, and the finiteness of the inputs is not used.
  The idealization rewrote no operation, so there is nothing to preserve.
-/
import proofs.«124218_j31868657336361_1_alg».proof.Defs
import proofs.«124218_j31868657336361_1_alg».proof.Proof.Gen.Kernel
import proofs.«124218_j31868657336361_1_alg».proof.Proof.Gen.Kernel.Frame
import proofs.«124218_j31868657336361_1_alg».proof.Proof.Gen.KernelIdeal
import proofs.«124218_j31868657336361_1_alg».proof.Proof.Gen.KernelIdeal.Frame
import proofs.«124218_j31868657336361_1_alg».proof.Proof.Gen.KernelIdeal.Value
import proofs.«124218_j31868657336361_1_alg».proof.Proof.Gen.ReferenceIdeal
import proofs.«124218_j31868657336361_1_alg».proof.Proof.Gen.ReferenceIdeal.Run
import proofs.«124218_j31868657336361_1_alg».proof.Proof.Gen.ReferenceIdeal.Read
import proofs.«124218_j31868657336361_1_alg».proof.Proof.Gen.Pre_finite_inputs
import proofs.«124218_j31868657336361_1_alg».proof.Proof.RefRate
import proofs.«124218_j31868657336361_1_alg».proof.Proof.TileField

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals the kernel's result array ends at the rate law's field of its arguments (the tiles cover the
    array), and the reference's at the same field of arguments that agree. -/
theorem algebraic : Cert.algebraic_KernelIdeal_ReferenceIdeal := by
  intro m ρ m' ρ' _ hagree
  refine ⟨fun c => Cert.TileField.result m c, Cert.TileField.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.RefRate.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
